-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S128 : Shape := ⟨1, ![128]⟩
abbrev S30000x300 : Shape := ⟨2, ![30000, 300]⟩
abbrev S2x614400 : Shape := ⟨2, ![2, 614400]⟩
abbrev S2 : Shape := ⟨1, ![2]⟩
abbrev S128x614400 : Shape := ⟨2, ![128, 614400]⟩
abbrev S_ : Shape := ⟨0, ![]⟩

class Facts : Prop where
  bcast_S_S128x2048 : S_.BroadcastsInDim S128x2048 (![] : Fin 0 → Fin S128x2048.rank)
  reducesTo_S128x2048_S_d0_1 : S128x2048.ReducesTo [0, 1] S_
  h_S_ : 0 < S_.numel
  bcast_S_S30000x300 : S_.BroadcastsInDim S30000x300 (![] : Fin 0 → Fin S30000x300.rank)
  reducesTo_S30000x300_S_d0_1 : S30000x300.ReducesTo [0, 1] S_
  bcast_S_S2x614400 : S_.BroadcastsInDim S2x614400 (![] : Fin 0 → Fin S2x614400.rank)
  reducesTo_S2x614400_S_d0_1 : S2x614400.ReducesTo [0, 1] S_
  bcast_S_S2 : S_.BroadcastsInDim S2 (![] : Fin 0 → Fin S2.rank)
  reducesTo_S2_S_d0 : S2.ReducesTo [0] S_
  bcast_S_S128x614400 : S_.BroadcastsInDim S128x614400 (![] : Fin 0 → Fin S128x614400.rank)
  reducesTo_S128x614400_S_d0_1 : S128x614400.ReducesTo [0, 1] S_

variable [Facts]

def fn_part1 {F : FTy → Type} [FloatOps F] (main_arg5 : FVec F S128x614400 .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S128x614400 .f32 := Host.absf main_arg5
  let main_cst_6 : FVec F S_ .f32 := constant S_ .f32 0x7F800000#32
  let main_v20 : FVec F S128x614400 .f32 := broadcastInDim S128x614400 ![] bcast_S_S128x614400 main_cst_6
  let main_v21 : IVec S128x614400 1 := cmpf .olt main_v19 main_v20
  let main_c_7 : IVec S_ 1 := constantI S_ 1 1#1
  let main_v22 : IVec S_ 1 := (fun x v => Host.reduce IntOp.andi x v reducesTo_S128x614400_S_d0_1 h_S_) main_v21 main_c_7
  let main_v23 : IVec S_ 1 := andi main_v18 main_v22
  main_v23

def fn {F : FTy → Type} [FloatOps F] (main_arg0 : FVec F S128x2048 .f32) (main_arg1 : IVec S128 32) (main_arg2 : FVec F S30000x300 .f32) (main_arg3 : FVec F S2x614400 .f32) (main_arg4 : FVec F S2 .f32) (main_arg5 : FVec F S128x614400 .f32) : IVec S_ 1 :=
  let main_v0 : FVec F S128x2048 .f32 := Host.absf main_arg0
  let main_cst : FVec F S_ .f32 := constant S_ .f32 0x7F800000#32
  let main_v1 : FVec F S128x2048 .f32 := broadcastInDim S128x2048 ![] bcast_S_S128x2048 main_cst
  let main_v2 : IVec S128x2048 1 := cmpf .olt main_v0 main_v1
  let main_c : IVec S_ 1 := constantI S_ 1 1#1
  let main_v3 : IVec S_ 1 := (fun x v => Host.reduce IntOp.andi x v reducesTo_S128x2048_S_d0_1 h_S_) main_v2 main_c
  let main_v4 : FVec F S30000x300 .f32 := Host.absf main_arg2
  let main_cst_0 : FVec F S_ .f32 := constant S_ .f32 0x7F800000#32
  let main_v5 : FVec F S30000x300 .f32 := broadcastInDim S30000x300 ![] bcast_S_S30000x300 main_cst_0
  let main_v6 : IVec S30000x300 1 := cmpf .olt main_v4 main_v5
  let main_c_1 : IVec S_ 1 := constantI S_ 1 1#1
  let main_v7 : IVec S_ 1 := (fun x v => Host.reduce IntOp.andi x v reducesTo_S30000x300_S_d0_1 h_S_) main_v6 main_c_1
  let main_v8 : IVec S_ 1 := andi main_v3 main_v7
  let main_v9 : FVec F S2x614400 .f32 := Host.absf main_arg3
  let main_cst_2 : FVec F S_ .f32 := constant S_ .f32 0x7F800000#32
  let main_v10 : FVec F S2x614400 .f32 := broadcastInDim S2x614400 ![] bcast_S_S2x614400 main_cst_2
  let main_v11 : IVec S2x614400 1 := cmpf .olt main_v9 main_v10
  let main_c_3 : IVec S_ 1 := constantI S_ 1 1#1
  let main_v12 : IVec S_ 1 := (fun x v => Host.reduce IntOp.andi x v reducesTo_S2x614400_S_d0_1 h_S_) main_v11 main_c_3
  let main_v13 : IVec S_ 1 := andi main_v8 main_v12
  let main_v14 : FVec F S2 .f32 := Host.absf main_arg4
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg5 main_v13 main_v16
-- ==== Kernel.lean ====
abbrev S128x2048 : Shape := ⟨2, ![128, 2048]⟩
abbrev S128 : Shape := ⟨1, ![128]⟩
abbrev S30000x300 : Shape := ⟨2, ![30000, 300]⟩
abbrev S2x614400 : Shape := ⟨2, ![2, 614400]⟩
abbrev S2 : Shape := ⟨1, ![2]⟩
abbrev S128x614400 : Shape := ⟨2, ![128, 614400]⟩
abbrev S_ : Shape := ⟨0, ![]⟩
abbrev S128x1 : Shape := ⟨2, ![128, 1]⟩
abbrev S128x300 : Shape := ⟨2, ![128, 300]⟩
abbrev S128x300x2048 : Shape := ⟨3, ![128, 300, 2048]⟩
abbrev S2x300x2048 : Shape := ⟨3, ![2, 300, 2048]⟩
abbrev S1x2 : Shape := ⟨2, ![1, 2]⟩
abbrev S128x2 : Shape := ⟨2, ![128, 2]⟩
abbrev S32x300 : Shape := ⟨2, ![32, 300]⟩
abbrev S32x128 : Shape := ⟨2, ![32, 128]⟩
abbrev S32x300x128 : Shape := ⟨3, ![32, 300, 128]⟩
abbrev S32x2 : Shape := ⟨2, ![32, 2]⟩
abbrev S32x300x1 : Shape := ⟨3, ![32, 300, 1]⟩
abbrev S32x1x128 : Shape := ⟨3, ![32, 1, 128]⟩
abbrev S2x300x128 : Shape := ⟨3, ![2, 300, 128]⟩
abbrev S1x300x128 : Shape := ⟨3, ![1, 300, 128]⟩
abbrev S300x128 : Shape := ⟨2, ![300, 128]⟩
abbrev S32 : Shape := ⟨1, ![32]⟩
abbrev S32x1 : Shape := ⟨2, ![32, 1]⟩

abbrev nBuf : Space → Nat
  | .hbm => 19
  | .vmem => 11
  | .smem => 0
  | _ => 0

abbrev bufTy : (tb : Table) → Fin (tcTables nBuf tb) → BufTy
  | .hbm, ⟨0, _⟩ => ⟨S128x2048, .f32⟩
  | .hbm, ⟨1, _⟩ => ⟨S128, .i32⟩
  | .hbm, ⟨2, _⟩ => ⟨S30000x300, .f32⟩
  | .hbm, ⟨3, _⟩ => ⟨S2x614400, .f32⟩
  | .hbm, ⟨4, _⟩ => ⟨S2, .f32⟩
  | .hbm, ⟨5, _⟩ => ⟨S128x614400, .f32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S128x300, .f32⟩
  | .hbm, ⟨15, _⟩ => ⟨S128x300x2048, .f32⟩
  | .hbm, ⟨16, _⟩ => ⟨S2x300x2048, .f32⟩
  | .hbm, ⟨17, _⟩ => ⟨S1x2, .f32⟩
  | .hbm, ⟨18, _⟩ => ⟨S128x2, .f32⟩
  | .local _ .vmem, ⟨0, _⟩ => ⟨S32x300, .f32⟩
  | .local _ .vmem, ⟨1, _⟩ => ⟨S32x300, .f32⟩
  | .local _ .vmem, ⟨2, _⟩ => ⟨S32x128, .f32⟩
  | .local _ .vmem, ⟨3, _⟩ => ⟨S32x128, .f32⟩
  | .local _ .vmem, ⟨4, _⟩ => ⟨S32x300x128, .f32⟩
  | .local _ .vmem, ⟨5, _⟩ => ⟨S32x300x128, .f32⟩
  | .local _ .vmem, ⟨6, _⟩ => ⟨S2x300x2048, .f32⟩
  | .local _ .vmem, ⟨7, _⟩ => ⟨S1x2, .f32⟩
  | .local _ .vmem, ⟨8, _⟩ => ⟨S32x2, .f32⟩
  | .local _ .vmem, ⟨9, _⟩ => ⟨S32x2, .f32⟩
  | .local _ .vmem, ⟨10, _⟩ => ⟨S32x2, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c128_i32 : BitVec 32 := 128#32
  let v14 : BitVec 32 := Scalar.muli arg1 c128_i32
  v14
def k0_off1 (i : grid0.Coords) : Fin 3 → Nat :=
  let c0_7 : Index := 0#32
  let c0_8 : Index := 0#32
  let arg1 : BitVec 32 := BitVec.ofNat 32 (i 1).val
  let c128_i32 : BitVec 32 := 128#32
  let v14 : BitVec 32 := Scalar.muli arg1 c128_i32
  let v15 : BitVec 32 := v14
  let v16 : Index := Scalar.indexCast v15
  ![0, 0, v16.toNat]
def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_16 : BitVec 32 := 0#32
  let v43 : BitVec 1 := Scalar.cmpi .ne v42 c0_i32_16
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x300x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x300x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S128 : S_.BroadcastsInDim S128 (![] : Fin 0 → Fin S128.rank)
  bcast_S128_S128x1_0 : S128.BroadcastsInDim S128x1 (![0] : Fin 1 → Fin S128x1.rank)
  shapeCasts_S128x614400_S128x300x2048 : S128x614400.ShapeCasts S128x300x2048
  shapeCasts_S2x614400_S2x300x2048 : S2x614400.ShapeCasts S2x300x2048
  shapeCasts_S2_S1x2 : S2.ShapeCasts S1x2
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S32x300_S32x300_0_0 : ∀ a, (![0, 0] : Fin 2 → Nat) a + S32x300.size a ≤ S32x300.size a
  h_S32x300 : 0 < S32x300.numel
  shapeCasts_S32x300_S32x300 : S32x300.ShapeCasts S32x300
  inb_S32x128_S32x128_0_0 : ∀ a, (![0, 0] : Fin 2 → Nat) a + S32x128.size a ≤ S32x128.size a
  h_S32x128 : 0 < S32x128.numel
  inb_S32x300x128_S32x300x128_0_0_0 : ∀ a, (![0, 0, 0] : Fin 3 → Nat) a + S32x300x128.size a ≤ S32x300x128.size a
  h_S32x300x128 : 0 < S32x300x128.numel
  shapeCasts_S32x300x128_S32x300x128 : S32x300x128.ShapeCasts S32x300x128
  shapeCasts_S32x300_S32x300x1 : S32x300.ShapeCasts S32x300x1
  shapeCasts_S32x128_S32x1x128 : S32x128.ShapeCasts S32x1x128
  broadcasts_S32x300x1_S32x300x128 : S32x300x1.Broadcasts S32x300x128
  broadcasts_S32x1x128_S32x300x128 : S32x1x128.Broadcasts S32x300x128
  h_S2x300x128 : 0 < S2x300x128.numel
  shapeCasts_S2x300x128_S2x300x128 : S2x300x128.ShapeCasts S2x300x128
  slices_S2x300x128_o0_0_0_S1x300x128 : S2x300x128.Slices ![0, 0, 0] S1x300x128
  shapeCasts_S1x300x128_S300x128 : S1x300x128.ShapeCasts S300x128
  shapeCasts_S300x128_S1x300x128 : S300x128.ShapeCasts S1x300x128
  broadcasts_S1x300x128_S32x300x128 : S1x300x128.Broadcasts S32x300x128
  reduces_S32x300x128_S32x300 : S32x300x128.Reduces [2] S32x300
  reduces_S32x300_S32 : S32x300.Reduces [1] S32
  shapeCasts_S32_S32x1 : S32.ShapeCasts S32x1
  slices_S2x300x128_o1_0_0_S1x300x128 : S2x300x128.Slices ![1, 0, 0] S1x300x128
  concatenates_S32x1_S32x1_S32x2_d1 : Shape.Concatenates [S32x1, S32x1] S32x2 1
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S32x2 : S1x2.Broadcasts S32x2
  gather_S30000x300_S128x1_S128x300_1_0_n_n_0_1_1300_wf : GatherDims.WF S30000x300 S128x1 S128x300 [1] [0] [] [0] [] 1 ![1, 300]
  hrank0 : 0 < grid0.rank
  k0_mult1_dvd : ∀ i : grid0.Coords, 128 ∣ (k0_mult1 i).toNat
  k0_off1_inb : ∀ i : grid0.Coords, ∀ a, (k0_off1 i) a + S2x300x128.size a ≤ S2x300x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x300.size a ≤ S128x300.size a
  hwx0_0 : ∀ i : grid0.Coords, EltTy.bits .f32 = 32 ∨ (Rect.block (s := S128x300) S32x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S128x2048.size a
  hwx0_1 : ∀ i : grid0.Coords, EltTy.bits .f32 = 32 ∨ (Rect.block (s := S128x2048) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x300x128.size a ≤ S128x300x2048.size a
  hwx0_2 : ∀ i : grid0.Coords, EltTy.bits .f32 = 32 ∨ (Rect.block (s := S128x300x2048) S32x300x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x300x2048.size a ≤ S2x300x2048.size a
  hwx0_3 : ∀ i : grid0.Coords, EltTy.bits .f32 = 32 ∨ (Rect.block (s := S2x300x2048) S2x300x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x2.size a ≤ S128x2.size a
  hwx0_5 : ∀ i : grid0.Coords, EltTy.bits .f32 = 32 ∨ (Rect.block (s := S128x2) S32x2.size (cc0_transform_5 i) (hinb0_5 i)).WholeWords (EltTy.packing .f32)

variable [Facts₀]

def gather_S30000x300_S128x1_S128x300_1_0_n_n_0_1_1300 : GatherDims S30000x300 S128x1 S128x300 where
  offsetDims := [1]
  collapsedSliceDims := [0]
  operandBatchingDims := []
  startIndicesBatchingDims := []
  startIndexMap := [0]
  indexVectorDim := 1
  sliceSizes := ![1, 300]
  wf := gather_S30000x300_S128x1_S128x300_1_0_n_n_0_1_1300_wf

abbrev win0_0 : Pipeline.Window sig grid0 :=
  Pipeline.Window.ofSpec (Memref.whole main_v6) S32x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S32x300x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2x300x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S32x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S128x2048 : Shape := ⟨2, ![128, 2048]⟩
abbrev S128 : Shape := ⟨1, ![128]⟩
abbrev S30000x300 : Shape := ⟨2, ![30000, 300]⟩
abbrev S2x614400 : Shape := ⟨2, ![2, 614400]⟩
abbrev S2 : Shape := ⟨1, ![2]⟩
abbrev S128x614400 : Shape := ⟨2, ![128, 614400]⟩
abbrev S_ : Shape := ⟨0, ![]⟩
abbrev S128x1 : Shape := ⟨2, ![128, 1]⟩
abbrev S128x300 : Shape := ⟨2, ![128, 300]⟩
abbrev S128x300x1 : Shape := ⟨3, ![128, 300, 1]⟩
abbrev S128x1x2048 : Shape := ⟨3, ![128, 1, 2048]⟩
abbrev S128x300x2048 : Shape := ⟨3, ![128, 300, 2048]⟩
abbrev S614400x2 : Shape := ⟨2, ![614400, 2]⟩
abbrev S128x2 : Shape := ⟨2, ![128, 2]⟩
abbrev S1x2 : Shape := ⟨2, ![1, 2]⟩

abbrev nBuf : Space → Nat
  | .hbm => 27
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128, .i32⟩
  | .hbm, ⟨2, _⟩ => ⟨S30000x300, .f32⟩
  | .hbm, ⟨3, _⟩ => ⟨S2x614400, .f32⟩
  | .hbm, ⟨4, _⟩ => ⟨S2, .f32⟩
  | .hbm, ⟨5, _⟩ => ⟨S128x614400, .f32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S128x300, .f32⟩
  | .hbm, ⟨15, _⟩ => ⟨S128x300x1, .f32⟩
  | .hbm, ⟨16, _⟩ => ⟨S128x1x2048, .f32⟩
  | .hbm, ⟨17, _⟩ => ⟨S128x300x2048, .f32⟩
  | .hbm, ⟨18, _⟩ => ⟨S128x300x2048, .f32⟩
  | .hbm, ⟨19, _⟩ => ⟨S128x300x2048, .f32⟩
  | .hbm, ⟨20, _⟩ => ⟨S128x614400, .f32⟩
  | .hbm, ⟨21, _⟩ => ⟨S128x614400, .f32⟩
  | .hbm, ⟨22, _⟩ => ⟨S614400x2, .f32⟩
  | .hbm, ⟨23, _⟩ => ⟨S128x2, .f32⟩
  | .hbm, ⟨24, _⟩ => ⟨S1x2, .f32⟩
  | .hbm, ⟨25, _⟩ => ⟨S128x2, .f32⟩
  | .hbm, ⟨26, _⟩ => ⟨S128x2, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128x300_S128x300x1_0_1 : S128x300.BroadcastsInDim S128x300x1 (![0, 1] : Fin 2 → Fin S128x300x1.rank)
  bcast_S128x2048_S128x1x2048_0_2 : S128x2048.BroadcastsInDim S128x1x2048 (![0, 2] : Fin 2 → Fin S128x1x2048.rank)
  bcast_S128x300x1_S128x300x2048_0_1_2 : S128x300x1.BroadcastsInDim S128x300x2048 (![0, 1, 2] : Fin 3 → Fin S128x300x2048.rank)
  bcast_S128x1x2048_S128x300x2048_0_1_2 : S128x1x2048.BroadcastsInDim S128x300x2048 (![0, 1, 2] : Fin 3 → Fin S128x300x2048.rank)
  shapeCasts_S128x300x2048_S128x614400 : S128x300x2048.ShapeCasts S128x614400
  transposes_S2x614400_S614400x2_1_0 : S2x614400.Transposes [1, 0] S614400x2
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  gather_S30000x300_S128x1_S128x300_1_0_n_n_0_1_1300_wf : GatherDims.WF S30000x300 S128x1 S128x300 [1] [0] [] [0] [] 1 ![1, 300]
  dot_S128x614400_S614400x2_S128x2_1_0_0_1_n_n_wf : DotDims.WF S128x614400 S614400x2 S128x2 [1] [0] [0] [1] [] []

variable [Facts₀]

def gather_S30000x300_S128x1_S128x300_1_0_n_n_0_1_1300 : GatherDims S30000x300 S128x1 S128x300 where
  offsetDims := [1]
  collapsedSliceDims := [0]
  operandBatchingDims := []
  startIndicesBatchingDims := []
  startIndexMap := [0]
  indexVectorDim := 1
  sliceSizes := ![1, 300]
  wf := gather_S30000x300_S128x1_S128x300_1_0_n_n_0_1_1300_wf
def dot_S128x614400_S614400x2_S128x2_1_0_0_1_n_n : DotDims S128x614400 S614400x2 S128x2 where
  lhsContracting := [1]
  rhsContracting := [0]
  lhsNonContracting := [0]
  rhsNonContracting := [1]
  lhsBatch := []
  rhsBatch := []
  wf := dot_S128x614400_S614400x2_S128x2_1_0_0_1_n_n_wf

class Facts : Prop extends Facts₀ where

variable [Facts]
-- ==== Proof.Pieces.lean ====
/-
  What each control case of the body leaves behind, as pure terms of what it loads (any float instance).

  The body keeps a [32, 2] accumulator in scratch across the 16 column blocks of one batch chunk. At the first block
  it stores zeros and reads them back; at every block it adds the block's two partial sums to what it reads and
  stores the result; at the last block it also stores the accumulator plus the bias row into the output block.
  So, with `stepAcc` the accumulator after one block as a function of the blocks loaded and the accumulator before:
    first block   : `stepAcc` from the zero block,
    middle blocks : `stepAcc` from what the block before left,
    last block    : the same in scratch, and in the output block that value plus the bias.
-/
import proofs.«127470_j44263932952625_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 128 lanes of the resident weight table [2, 300, 2048] that column block `i 1` uses: lanes
    `128 · (i 1) … 128 · (i 1) + 127` of every class and row. -/
def lanes (i : grid0.Coords) (x3 : Vec F S2x300x2048 .f32) : Vec F S2x300x128 .f32 :=
  View.ld x3 (Rect.unit (s := S2x300x2048) (k0_off1 i) S2x300x128.size (k0_off1_inb i))

/-- The accumulator after one block: what was there plus the block's two partial sums. -/
def stepAcc (i : grid0.Coords) (x0 : Vec F S32x300 .f32) (x1 : Vec F S32x128 .f32) (x2 : Vec F S32x300x128 .f32)
    (x3 : Vec F S2x300x2048 .f32) (acc : Vec F S32x2 .f32) : Vec F S32x2 .f32 :=
  k0_pay1 (k0_pay4 x0 x1 x2 (lanes i x3) acc)

/-- A middle block leaves in scratch one step from what the block before left. -/
theorem sout_B (c : Dev nD) (i : grid0.Coords) (a2 : Memref sig .tc .vmem S32x300 .f32) (h2 : a2.IsWhole) (a3 : Memref sig .tc .vmem S32x128 .f32) (h3 : a3.IsWhole) (a4 : Memref sig .tc .vmem S32x300x128 .f32) (h4 : a4.IsWhole) (a5 : Memref sig .tc .vmem S2x300x2048 .f32) (h5 : a5.IsWhole) (a6 : Memref sig .tc .vmem S1x2 .f32) (h6 : a6.IsWhole) (a7 : Memref sig .tc .vmem S32x2 .f32) (h7 : a7.IsWhole) (a8 : Memref sig .tc .vmem S32x2 .f32) (h8 : a8.IsWhole) (hc0 : ¬cond0_0 i) (hc1 : ¬cond0_1 i) (x0 : Vec F S32x300 .f32) (x1 : Vec F S32x128 .f32) (x2 : Vec F S32x300x128 .f32) (x3 : Vec F S2x300x2048 .f32) (x4 : Vec F S1x2 .f32) (xs0 : Vec F S32x2 .f32) :
    sout0_B_0 c i a2 h2 a3 h3 a4 h4 a5 h5 a6 h6 a7 h7 a8 h8 hc0 hc1 x0 x1 x2 x3 x4 xs0 = stepAcc i x0 x1 x2 x3 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero hz2]
  simp only [View.readAt_eq_ld, h2.read_unread, h3.read_unread, h4.read_unread, h5.read_unread, h8.read_unread,
    View.ld_unit_zero (S := S32x300) hz2, View.ld_unit_zero (S := S32x128) hz2, View.ld_unit_zero (S := S32x300x128) hz3,
    View.ld_unit_zero (S := S32x2) hz2]
  rfl

/-- The last block leaves the same in scratch. -/
theorem sout_C (c : Dev nD) (i : grid0.Coords) (a2 : Memref sig .tc .vmem S32x300 .f32) (h2 : a2.IsWhole) (a3 : Memref sig .tc .vmem S32x128 .f32) (h3 : a3.IsWhole) (a4 : Memref sig .tc .vmem S32x300x128 .f32) (h4 : a4.IsWhole) (a5 : Memref sig .tc .vmem S2x300x2048 .f32) (h5 : a5.IsWhole) (a6 : Memref sig .tc .vmem S1x2 .f32) (h6 : a6.IsWhole) (a7 : Memref sig .tc .vmem S32x2 .f32) (h7 : a7.IsWhole) (a8 : Memref sig .tc .vmem S32x2 .f32) (h8 : a8.IsWhole) (hc0 : ¬cond0_0 i) (hc1 : cond0_1 i) (x0 : Vec F S32x300 .f32) (x1 : Vec F S32x128 .f32) (x2 : Vec F S32x300x128 .f32) (x3 : Vec F S2x300x2048 .f32) (x4 : Vec F S1x2 .f32) (xs0 : Vec F S32x2 .f32) :
    sout0_C_0 c i a2 h2 a3 h3 a4 h4 a5 h5 a6 h6 a7 h7 a8 h8 hc0 hc1 x0 x1 x2 x3 x4 xs0 = stepAcc i x0 x1 x2 x3 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero hz2]
  simp only [View.readAt_eq_ld, h2.read_unread, h3.read_unread, h4.read_unread, h5.read_unread, h8.read_unread,
    View.ld_unit_zero (S := S32x300) hz2, View.ld_unit_zero (S := S32x128) hz2, View.ld_unit_zero (S := S32x300x128) hz3,
    View.ld_unit_zero (S := S32x2) hz2]
  rfl

/-- The first block stores the zero block, reads it back, and leaves one step from it. -/
theorem sout_A (c : Dev nD) (i : grid0.Coords) (a2 : Memref sig .tc .vmem S32x300 .f32) (h2 : a2.IsWhole) (a3 : Memref sig .tc .vmem S32x128 .f32) (h3 : a3.IsWhole) (a4 : Memref sig .tc .vmem S32x300x128 .f32) (h4 : a4.IsWhole) (a5 : Memref sig .tc .vmem S2x300x2048 .f32) (h5 : a5.IsWhole) (a6 : Memref sig .tc .vmem S1x2 .f32) (h6 : a6.IsWhole) (a7 : Memref sig .tc .vmem S32x2 .f32) (h7 : a7.IsWhole) (a8 : Memref sig .tc .vmem S32x2 .f32) (h8 : a8.IsWhole) (hc0 : cond0_0 i) (hc1 : ¬cond0_1 i) (x0 : Vec F S32x300 .f32) (x1 : Vec F S32x128 .f32) (x2 : Vec F S32x300x128 .f32) (x3 : Vec F S2x300x2048 .f32) (x4 : Vec F S1x2 .f32) :
    sout0_A_0 c i a2 h2 a3 h3 a4 h4 a5 h5 a6 h6 a7 h7 a8 h8 hc0 hc1 x0 x1 x2 x3 x4 = stepAcc i x0 x1 x2 x3 k0_pay3 := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S32x2) hz2, View.readCov_unit_zero (S := S32x2) _ hz2]
  simp only [View.readAt_eq_ld, h2.read_unread, h3.read_unread, h4.read_unread, h5.read_unread, h6.read_unread, h8.read_unread,
    View.ld_unit_zero (S := S32x300) hz2, View.ld_unit_zero (S := S32x128) hz2, View.ld_unit_zero (S := S32x300x128) hz3,
    View.ld_unit_zero (S := S32x2) hz2, View.ld_unit_zero (S := S1x2) hz2]
  rfl

/-- The last block's output block: the accumulator it has just stored, read back, plus the bias row on every row. -/
theorem out_C (c : Dev nD) (i : grid0.Coords) (a2 : Memref sig .tc .vmem S32x300 .f32) (h2 : a2.IsWhole) (a3 : Memref sig .tc .vmem S32x128 .f32) (h3 : a3.IsWhole) (a4 : Memref sig .tc .vmem S32x300x128 .f32) (h4 : a4.IsWhole) (a5 : Memref sig .tc .vmem S2x300x2048 .f32) (h5 : a5.IsWhole) (a6 : Memref sig .tc .vmem S1x2 .f32) (h6 : a6.IsWhole) (a7 : Memref sig .tc .vmem S32x2 .f32) (h7 : a7.IsWhole) (a8 : Memref sig .tc .vmem S32x2 .f32) (h8 : a8.IsWhole) (hc0 : ¬cond0_0 i) (hc1 : cond0_1 i) (x0 : Vec F S32x300 .f32) (x1 : Vec F S32x128 .f32) (x2 : Vec F S32x300x128 .f32) (x3 : Vec F S2x300x2048 .f32) (x4 : Vec F S1x2 .f32) (xs0 : Vec F S32x2 .f32) :
    out0_C_5 c i a2 h2 a3 h3 a4 h4 a5 h5 a6 h6 a7 h7 a8 h8 hc0 hc1 x0 x1 x2 x3 x4 xs0 = k0_pay2 (stepAcc i x0 x1 x2 x3 xs0) x4 := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero hz2, View.readCov_unit_zero (S := S32x2) _ hz2]
  simp only [View.readAt_eq_ld, h2.read_unread, h3.read_unread, h4.read_unread, h5.read_unread, h6.read_unread, h8.read_unread,
    View.ld_unit_zero (S := S32x300) hz2, View.ld_unit_zero (S := S32x128) hz2, View.ld_unit_zero (S := S32x300x128) hz3,
    View.ld_unit_zero (S := S32x2) hz2, View.ld_unit_zero (S := S1x2) hz2]
  rfl

end Cert.KernelIdeal.Pieces

end
-- ==== Proof.Payload.lean ====
/-
  The body's arithmetic read at one entry, at the ideal instance (floats are extended reals, operations exact).

  One block's step adds to the accumulator entry (r, k) — batch row r of the chunk, class k — the double sum over the 300
  embedding rows w and the block's 128 lanes l of
      ((wv[r, w] · ims[r, l]) · mask[r, w, l]) · weights[k, w, l],
  the product grouped exactly so. The layout operations in between (unit axes added and dropped, broadcasts along the
  missing axis, the class's slice of the weight lanes, the two single-axis sums, the two columns set side by side) only
  move entries; each is read at an index by one small lemma below.
-/
import proofs.«127470_j44263932952625_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen

/-! ## Layout operations of the block's shapes, read at an index -/

section Layout
variable {α : Type}

/-- [32, 300] with a unit axis appended. -/
theorem cast_col (v : S32x300.Idx → α) (h : S32x300.ShapeCasts S32x300x1) (r : Fin 32) (w : Fin 300) (z : Fin 1) :
    shapeCast S32x300x1 v h (ix3 r w z) = v (ix2 r w) := by
  refine shapeCast_apply v h (ix3 r w z) (ix2 r w) ?_
  rw [Shape.rowMajor_val_two, Shape.rowMajor_val_three]
  show r.val * 300 + w.val = (r.val * 300 + w.val) * 1 + z.val
  have := z.isLt; omega

/-- [32, 128] with a unit axis inserted in the middle. -/
theorem cast_row (v : S32x128.Idx → α) (h : S32x128.ShapeCasts S32x1x128) (r : Fin 32) (z : Fin 1) (l : Fin 128) :
    shapeCast S32x1x128 v h (ix3 r z l) = v (ix2 r l) := by
  refine shapeCast_apply v h (ix3 r z l) (ix2 r l) ?_
  rw [Shape.rowMajor_val_two, Shape.rowMajor_val_three]
  show r.val * 128 + l.val = (r.val * 1 + z.val) * 128 + l.val
  have := z.isLt; omega

/-- [32] kept as a column [32, 1]. -/
theorem cast_keep (v : S32.Idx → α) (h : S32.ShapeCasts S32x1) (r : Fin 32) (z : Fin 1) :
    shapeCast S32x1 v h (ix2 r z) = v (ix1 r) := by
  refine shapeCast_apply v h (ix2 r z) (ix1 r) ?_
  rw [Shape.rowMajor_val_one, Shape.rowMajor_val_two]
  show r.val = r.val * 1 + z.val
  have := z.isLt; omega

/-- [32, 300, 1] repeated along the lanes. -/
theorem bcast_col (v : S32x300x1.Idx → α) (h : S32x300x1.Broadcasts S32x300x128) (r : Fin 32) (w : Fin 300) (l : Fin 128) :
    broadcastTo S32x300x128 v h (ix3 r w l) = v (ix3 r w (0 : Fin 1)) := by
  refine broadcastTo_apply v h (ix3 r w l) (ix3 r w (0 : Fin 1)) fun ax => ?_
  match ax with
  | ⟨0, _⟩ => show r.val = if (32 : Nat) = 1 then 0 else r.val; rw [if_neg (by decide)]
  | ⟨1, _⟩ => show w.val = if (300 : Nat) = 1 then 0 else w.val; rw [if_neg (by decide)]
  | ⟨2, _⟩ => show 0 = if (1 : Nat) = 1 then 0 else l.val; rw [if_pos rfl]

/-- [32, 1, 128] repeated along the embedding rows. -/
theorem bcast_row (v : S32x1x128.Idx → α) (h : S32x1x128.Broadcasts S32x300x128) (r : Fin 32) (w : Fin 300) (l : Fin 128) :
    broadcastTo S32x300x128 v h (ix3 r w l) = v (ix3 r (0 : Fin 1) l) := by
  refine broadcastTo_apply v h (ix3 r w l) (ix3 r (0 : Fin 1) l) fun ax => ?_
  match ax with
  | ⟨0, _⟩ => show r.val = if (32 : Nat) = 1 then 0 else r.val; rw [if_neg (by decide)]
  | ⟨1, _⟩ => show 0 = if (1 : Nat) = 1 then 0 else w.val; rw [if_pos rfl]
  | ⟨2, _⟩ => show l.val = if (128 : Nat) = 1 then 0 else l.val; rw [if_neg (by decide)]

/-- [1, 300, 128] repeated along the batch rows. -/
theorem bcast_batch (v : S1x300x128.Idx → α) (h : S1x300x128.Broadcasts S32x300x128) (r : Fin 32) (w : Fin 300) (l : Fin 128) :
    broadcastTo S32x300x128 v h (ix3 r w l) = v (ix3 (0 : Fin 1) w l) := by
  refine broadcastTo_apply v h (ix3 r w l) (ix3 (0 : Fin 1) w l) fun ax => ?_
  match ax with
  | ⟨0, _⟩ => show 0 = if (1 : Nat) = 1 then 0 else r.val; rw [if_pos rfl]
  | ⟨1, _⟩ => show w.val = if (300 : Nat) = 1 then 0 else w.val; rw [if_neg (by decide)]
  | ⟨2, _⟩ => show l.val = if (128 : Nat) = 1 then 0 else l.val; rw [if_neg (by decide)]

/-- Class `k`'s slice [1, 300, 128] of the weight lanes [2, 300, 128]. -/
theorem slice_class (k : Fin 2) (v : S2x300x128.Idx → α) (off : Fin 3 → Nat) (hoff : off = ![k.val, 0, 0])
    (h : S2x300x128.Slices off S1x300x128) (z : Fin 1) (w : Fin 300) (l : Fin 128) :
    extractStridedSlice S1x300x128 off v h (ix3 z w l) = v (ix3 k w l) := by
  subst hoff
  refine extractStridedSlice_apply _ v h (ix3 z w l) (ix3 k w l) fun ax => ?_
  match ax with
  | ⟨0, _⟩ => show k.val = k.val + z.val; have := z.isLt; omega
  | ⟨1, _⟩ => show w.val = 0 + w.val; omega
  | ⟨2, _⟩ => show l.val = 0 + l.val; omega

/-- Two [32, 1] columns side by side: column 0 is the first, -/
theorem concat_left (a b : S32x1.Idx → α) (h : Shape.Concatenates [S32x1, S32x1] S32x2 1) (r : Fin 32) :
    concatenate S32x2 1 [⟨S32x1, a⟩, ⟨S32x1, b⟩] h (ix2 r (0 : Fin 2)) = a (ix2 r (0 : Fin 1)) := by
  refine concatenate_pair_apply_left 1 a b h (ix2 r (0 : Fin 2)) rfl (ix2 r (0 : Fin 1)) fun ax => ?_
  match ax with
  | ⟨0, _⟩ => rfl
  | ⟨1, _⟩ => rfl

/-- and column 1 the second. -/
theorem concat_right (a b : S32x1.Idx → α) (h : Shape.Concatenates [S32x1, S32x1] S32x2 1) (r : Fin 32) :
    concatenate S32x2 1 [⟨S32x1, a⟩, ⟨S32x1, b⟩] h (ix2 r (1 : Fin 2)) = b (ix2 r (0 : Fin 1)) := by
  refine concatenate_pair_apply_right 1 a b h (ix2 r (1 : Fin 2)) rfl rfl (ix2 r (0 : Fin 1)) (fun ax hax => ?_) rfl
  match ax with
  | ⟨0, _⟩ => rfl
  | ⟨1, _⟩ => exact absurd rfl hax

end Layout

/-! ## The two single-axis sums -/

/-- The sum along the lanes of a [32, 300, 128] value. -/
theorem sum_lanes (v : FVec Ideal S32x300x128 .f32) (h : S32x300x128.Reduces [2] S32x300) (hφ : FKind.Formats .f32)
    (hacc : (0x00000000#32 : BitVec 32) = 0x00000000#32) (r : Fin 32) (w : Fin 300) :
    multiReduction .add [2] S32x300 v 0x00000000#32 h hφ hacc (ix2 r w) = ∑ l : Fin 128, v (ix3 r w l) :=
  (Ideal.multiReduction_add_single v 0x00000000#32 h hφ hacc (ix2 r w)).trans
    (Finset.sum_congr rfl fun l _ => congrArg v (funext fun ax => Fin.ext (by
      match ax with
      | ⟨0, _⟩ => rfl
      | ⟨1, _⟩ => rfl
      | ⟨2, _⟩ => rfl)))

/-- The sum along the embedding rows of a [32, 300] value. -/
theorem sum_rows (v : FVec Ideal S32x300 .f32) (h : S32x300.Reduces [1] S32) (hφ : FKind.Formats .f32)
    (hacc : (0x00000000#32 : BitVec 32) = 0x00000000#32) (r : Fin 32) :
    multiReduction .add [1] S32 v 0x00000000#32 h hφ hacc (ix1 r) = ∑ w : Fin 300, v (ix2 r w) :=
  (Ideal.multiReduction_add_single v 0x00000000#32 h hφ hacc (ix1 r)).trans
    (Finset.sum_congr rfl fun w _ => congrArg v (funext fun ax => Fin.ext (by
      match ax with
      | ⟨0, _⟩ => rfl
      | ⟨1, _⟩ => rfl)))

/-! ## The payloads at an entry -/

/-- The block's product at (r, w, l) against class `k`'s weights, through every layout step of the body. -/
theorem product_apply (x0 : FVec Ideal S32x300 .f32) (x1 : FVec Ideal S32x128 .f32) (x2 : FVec Ideal S32x300x128 .f32)
    (x17 : FVec Ideal S2x300x128 .f32) (k : Fin 2) (off : Fin 3 → Nat) (hoff : off = ![k.val, 0, 0])
    (hs : S2x300x128.Slices off S1x300x128) (r : Fin 32) (w : Fin 300) (l : Fin 128) :
    mulf (mulf (mulf (broadcastTo S32x300x128 (shapeCast S32x300x1 (shapeCast S32x300 x0 shapeCasts_S32x300_S32x300) shapeCasts_S32x300_S32x300x1) broadcasts_S32x300x1_S32x300x128)
        (broadcastTo S32x300x128 (shapeCast S32x1x128 x1 shapeCasts_S32x128_S32x1x128) broadcasts_S32x1x128_S32x300x128))
        (shapeCast S32x300x128 x2 shapeCasts_S32x300x128_S32x300x128))
      (broadcastTo S32x300x128 (shapeCast S1x300x128 (shapeCast S300x128
        (extractStridedSlice S1x300x128 off (shapeCast S2x300x128 x17 shapeCasts_S2x300x128_S2x300x128) hs)
        shapeCasts_S1x300x128_S300x128) shapeCasts_S300x128_S1x300x128) broadcasts_S1x300x128_S32x300x128) (ix3 r w l)
      = ((x0 (ix2 r w) * x1 (ix2 r l)) * x2 (ix3 r w l)) * x17 (ix3 k w l) := by
  rw [mulf_apply, mulf_apply, mulf_apply, bcast_col, cast_col, bcast_row, cast_row, bcast_batch, shapeCast_shapeCast,
    slice_class k _ off hoff, shapeCast_self, shapeCast_self, shapeCast_self]

/-- One block's step at entry (r, k): the accumulator entry plus the double sum of the block's products. -/
theorem pay4_apply (x0 : FVec Ideal S32x300 .f32) (x1 : FVec Ideal S32x128 .f32) (x2 : FVec Ideal S32x300x128 .f32)
    (x17 : FVec Ideal S2x300x128 .f32) (x36 : FVec Ideal S32x2 .f32) (r : Fin 32) (k : Fin 2) :
    k0_pay4 (F := Ideal) x0 x1 x2 x17 x36 (ix2 r k)
      = x36 (ix2 r k) + ∑ w : Fin 300, ∑ l : Fin 128, ((x0 (ix2 r w) * x1 (ix2 r l)) * x2 (ix3 r w l)) * x17 (ix3 k w l) := by
  unfold k0_pay4
  dsimp only
  rw [addf_apply]
  congr 1
  have hk : k = 0 ∨ k = 1 := by
    have := k.isLt
    rcases k with ⟨_ | _ | n, hn⟩
    · exact Or.inl rfl
    · exact Or.inr rfl
    · omega
  rcases hk with rfl | rfl
  · refine (concat_left _ _ _ r).trans ?_
    refine (cast_keep _ _ r 0).trans ?_
    refine (sum_rows _ _ _ _ r).trans ?_
    refine Finset.sum_congr rfl fun w _ => ?_
    refine (sum_lanes _ _ _ _ r w).trans ?_
    refine Finset.sum_congr rfl fun l _ => ?_
    exact product_apply x0 x1 x2 x17 (0 : Fin 2) ![0, 0, 0] rfl _ r w l
  · refine (concat_right _ _ _ r).trans ?_
    refine (cast_keep _ _ r 0).trans ?_
    refine (sum_rows _ _ _ _ r).trans ?_
    refine Finset.sum_congr rfl fun w _ => ?_
    refine (sum_lanes _ _ _ _ r w).trans ?_
    refine Finset.sum_congr rfl fun l _ => ?_
    exact product_apply x0 x1 x2 x17 (1 : Fin 2) ![1, 0, 0] rfl _ r w l

/-- The stored accumulator is the step's value (a same-shape cast). -/
theorem pay1_eq (v : FVec Ideal S32x2 .f32) : k0_pay1 (F := Ideal) v = v := by
  unfold k0_pay1
  exact shapeCast_self v _

/-- The zero block, at an entry. -/
theorem pay3_apply (i : S32x2.Idx) : k0_pay3 (F := Ideal) i = 0 := by
  unfold k0_pay3
  rw [shapeCast_self]
  exact Ideal.ofBits_zero_f32

/-- The output block: the accumulator entry plus the bias of its class. -/
theorem pay2_apply (v44 : FVec Ideal S32x2 .f32) (v45 : FVec Ideal S1x2 .f32) (r : Fin 32) (k : Fin 2) :
    k0_pay2 (F := Ideal) v44 v45 (ix2 r k) = v44 (ix2 r k) + v45 (ix2 (0 : Fin 1) k) := by
  unfold k0_pay2
  rw [addf_apply, broadcastTo_1b_ab_apply, shapeCast_self]

end Cert.KernelIdeal.Payload

end
-- ==== Proof.Blocks.lean ====
/-
  Where each block sits in its array, and what the arrays are.

  The grid is 4 batch chunks by 16 column blocks, row-major: point t is chunk t / 16, column block t % 16. At point t
  the gathered embedding rows' block is rows 32·(t/16) … +31 (all 300 columns); the image block is those rows and
  columns 128·(t%16) … +127; the mask block is those rows, all 300 embedding rows, those columns; the weight table and
  the bias row are resident whole, and the body takes from the weight table the lanes 128·(t%16) … +127 itself.
  The arrays the region finds are the program's own host operations of the arguments: the embedding rows gathered at the
  (wrapped) word indices, and the mask, the weights and the bias reshaped.
-/
import proofs.«127470_j44263932952625_2_alg».proof.Proof.Gen.KernelIdeal.Frame
import proofs.«127470_j44263932952625_2_alg».proof.Proof.Pieces
import Idealize.ShloMosaic.Lib.Pipeline.Value
import Idealize.ShloMosaic.Lib.ValueIdx
import Idealize.ShloMosaic.Lib.StableHlo.Run

noncomputable section

open Idealize.ShloMosaic Idealize.ShloMosaic.TcCoe Idealize.ShloMosaic.ValueIdx Idealize.SL.Sem

namespace Cert.KernelIdeal.Blocks

open Cert.KernelIdeal Cert.KernelIdeal.Gen

variable {F : FTy → Type} [FloatOps F]
variable (m : (ℓ : Loc nD τ sig) → Buf (Elt F) ℓ)

/-- The printed index maps and the body's lane offset, decided once over the 64 grid points. -/
theorem idx_facts : ∀ t : Fin cfg0.N,
    win0_0.index t (0 : Fin 2) = t.val / 16 ∧ win0_0.index t (1 : Fin 2) = 0
    ∧ win0_1.index t (0 : Fin 2) = t.val / 16 ∧ win0_1.index t (1 : Fin 2) = t.val % 16
    ∧ win0_2.index t (0 : Fin 3) = t.val / 16 ∧ win0_2.index t (1 : Fin 3) = 0 ∧ win0_2.index t (2 : Fin 3) = t.val % 16
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val / 16 ∧ win0_5.index t (1 : Fin 2) = 0
    ∧ k0_off1 (grid0.coords t) (0 : Fin 3) = 0 ∧ k0_off1 (grid0.coords t) (1 : Fin 3) = 0
    ∧ k0_off1 (grid0.coords t) (2 : Fin 3) = 128 * (t.val % 16) :=
  (by decide +kernel : ∀ t : Fin grid0.N, _)

theorem t_lt (t : Fin cfg0.N) : t.val < 64 := lt_of_lt_of_eq t.isLt (show cfg0.N = 64 from N_0)

/-- Batch row `r` of point `t`'s chunk, in the whole batch. -/
abbrev row (t : Fin cfg0.N) (r : Fin 32) : Fin 128 := ⟨32 * (t.val / 16) + r.val, by have := t_lt t; have := r.isLt; omega⟩
/-- Lane `l` of point `t`'s column block, among the 2048 image columns. -/
abbrev col (t : Fin cfg0.N) (l : Fin 128) : Fin 2048 := ⟨128 * (t.val % 16) + l.val, by have := l.isLt; omega⟩

/-- The embedding rows' block at a point. -/
theorem blk0 (c : Dev nD) (t : Fin cfg0.N) (r : Fin 32) (w : Fin 300) :
    (iblk m c 0 t : Vec F S32x300 .f32) (ix2 r w) = V m c main_v6 (ix2 (row t r) w) := by
  obtain ⟨e0, e1, -⟩ := idx_facts t
  show V m c main_v6 (((cfg0.win 0).blk t).view.emb (ix2 r w)) = _
  refine congrArg (V m c main_v6) (funext fun a => Fin.ext ?_)
  match a with
  | ⟨0, _⟩ => show win0_0.index t (0 : Fin 2) * 32 + 1 * r.val = 32 * (t.val / 16) + r.val; rw [e0]; omega
  | ⟨1, _⟩ => show win0_0.index t (1 : Fin 2) * 300 + 1 * w.val = w.val; rw [e1]; omega

/-- The image block at a point. -/
theorem blk1 (c : Dev nD) (t : Fin cfg0.N) (r : Fin 32) (l : Fin 128) :
    (iblk m c 1 t : Vec F S32x128 .f32) (ix2 r l) = V m c main_arg0 (ix2 (row t r) (col t l)) := by
  obtain ⟨-, -, e0, e1, -⟩ := idx_facts t
  show V m c main_arg0 (((cfg0.win 1).blk t).view.emb (ix2 r l)) = _
  refine congrArg (V m c main_arg0) (funext fun a => Fin.ext ?_)
  match a with
  | ⟨0, _⟩ => show win0_1.index t (0 : Fin 2) * 32 + 1 * r.val = 32 * (t.val / 16) + r.val; rw [e0]; omega
  | ⟨1, _⟩ => show win0_1.index t (1 : Fin 2) * 128 + 1 * l.val = 128 * (t.val % 16) + l.val; rw [e1]; omega

/-- The mask block at a point. -/
theorem blk2 (c : Dev nD) (t : Fin cfg0.N) (r : Fin 32) (w : Fin 300) (l : Fin 128) :
    (iblk m c 2 t : Vec F S32x300x128 .f32) (ix3 r w l) = V m c main_v7 (ix3 (row t r) w (col t l)) := by
  obtain ⟨-, -, -, -, e0, e1, e2, -⟩ := idx_facts t
  show V m c main_v7 (((cfg0.win 2).blk t).view.emb (ix3 r w l)) = _
  refine congrArg (V m c main_v7) (funext fun a => Fin.ext ?_)
  match a with
  | ⟨0, _⟩ => show win0_2.index t (0 : Fin 3) * 32 + 1 * r.val = 32 * (t.val / 16) + r.val; rw [e0]; omega
  | ⟨1, _⟩ => show win0_2.index t (1 : Fin 3) * 300 + 1 * w.val = w.val; rw [e1]; omega
  | ⟨2, _⟩ => show win0_2.index t (2 : Fin 3) * 128 + 1 * l.val = 128 * (t.val % 16) + l.val; rw [e2]; omega

/-- The lanes the body takes of the resident weight table at a point. -/
theorem lanes3 (c : Dev nD) (t : Fin cfg0.N) (k : Fin 2) (w : Fin 300) (l : Fin 128) :
    Pieces.lanes (grid0.coords t) (iblk m c 3 t : Vec F S2x300x2048 .f32) (ix3 k w l) = V m c main_v8 (ix3 k w (col t l)) := by
  obtain ⟨-, -, -, -, -, -, -, e0, e1, e2, -, -, -, -, o0, o1, o2⟩ := idx_facts t
  show V m c main_v8 (((cfg0.win 3).blk t).view.emb
    ((Rect.unit (s := S2x300x2048) (k0_off1 (grid0.coords t)) S2x300x128.size (k0_off1_inb (grid0.coords t))).emb (ix3 k w l))) = _
  refine congrArg (V m c main_v8) (funext fun a => Fin.ext ?_)
  match a with
  | ⟨0, _⟩ => show win0_3.index t (0 : Fin 3) * 2 + 1 * (k0_off1 (grid0.coords t) (0 : Fin 3) + 1 * k.val) = k.val; rw [e0, o0]; omega
  | ⟨1, _⟩ => show win0_3.index t (1 : Fin 3) * 300 + 1 * (k0_off1 (grid0.coords t) (1 : Fin 3) + 1 * w.val) = w.val; rw [e1, o1]; omega
  | ⟨2, _⟩ => show win0_3.index t (2 : Fin 3) * 2048 + 1 * (k0_off1 (grid0.coords t) (2 : Fin 3) + 1 * l.val) = 128 * (t.val % 16) + l.val; rw [e2, o2]; omega

/-- The bias row at a point: resident whole. -/
theorem blk4 (c : Dev nD) (t : Fin cfg0.N) (z : Fin 1) (k : Fin 2) :
    (iblk m c 4 t : Vec F S1x2 .f32) (ix2 z k) = V m c main_v9 (ix2 z k) := by
  obtain ⟨-, -, -, -, -, -, -, -, -, -, e0, e1, -⟩ := idx_facts t
  show V m c main_v9 (((cfg0.win 4).blk t).view.emb (ix2 z k)) = _
  refine congrArg (V m c main_v9) (funext fun a => Fin.ext ?_)
  match a with
  | ⟨0, _⟩ => show win0_4.index t (0 : Fin 2) * 1 + 1 * z.val = z.val; rw [e0]; omega
  | ⟨1, _⟩ => show win0_4.index t (1 : Fin 2) * 2 + 1 * k.val = k.val; rw [e1]; omega

end Cert.KernelIdeal.Blocks

end
-- ==== Proof.Accum.lean ====
/-
  The accumulator across the grid, at the ideal instance.

  One step at point t adds to entry (r, k) of the accumulator the point's ADDEND: the double sum, over the 300
  embedding rows w and the point's 128 lanes l, of the product
      ((wv[b, w] · ims[b, j]) · mask[b, w, j]) · weights[k, w, j],   b = 32·(t/16) + r,  j = 128·(t%16) + l,
  of whole-array entries. The first point of a chunk starts from the zero block, every other point from what the point
  before left; so after point t the scratch holds 0 plus the addends of the points 16·(t/16) … t of its chunk, and the
  last point of the chunk writes that, plus the bias of the class, into the output block.
-/
import proofs.«127470_j44263932952625_2_alg».proof.Proof.Gen.KernelIdeal.Value
import proofs.«127470_j44263932952625_2_alg».proof.Proof.Pieces
import proofs.«127470_j44263932952625_2_alg».proof.Proof.Payload
import proofs.«127470_j44263932952625_2_alg».proof.Proof.Blocks

noncomputable section

open Idealize.ShloMosaic Idealize.ShloMosaic.TcCoe Idealize.ShloMosaic.ValueIdx Idealize.SL.Sem

namespace Cert.KernelIdeal.Accum

open Cert.KernelIdeal Cert.KernelIdeal.Gen Cert.KernelIdeal.Blocks

variable (m : (ℓ : Loc nD τ sig) → Buf (Elt Ideal) ℓ)

/-- The arrays the region finds, as extended-real tables: the gathered embedding rows, the images, the mask, the weights
    and the bias row. -/
abbrev wvA (c : Dev nD) : S128x300.Idx → EReal := V m c main_v6
abbrev imsA (c : Dev nD) : S128x2048.Idx → EReal := V m c main_arg0
abbrev mskA (c : Dev nD) : S128x300x2048.Idx → EReal := V m c main_v7
abbrev wtsA (c : Dev nD) : S2x300x2048.Idx → EReal := V m c main_v8
abbrev biasA (c : Dev nD) : S1x2.Idx → EReal := V m c main_v9

/-- One product of whole-array entries: batch row `b`, class `k`, embedding row `w`, image column `j`. -/
def prod (c : Dev nD) (b : Fin 128) (k : Fin 2) (w : Fin 300) (j : Fin 2048) : EReal :=
  ((wvA m c (ix2 b w) * imsA m c (ix2 b j)) * mskA m c (ix3 b w j)) * wtsA m c (ix3 k w j)

/-- What point `n` adds to entry `i` of the accumulator (zero past the grid, where it is never used). -/
def addend (c : Dev nD) (n : ℕ) (i : S32x2.Idx) : EReal :=
  if h : n < cfg0.N then ∑ w : Fin 300, ∑ l : Fin 128, prod m c (row ⟨n, h⟩ (i 0)) (i 1) w (col ⟨n, h⟩ l) else 0

/-- One step over any loaded blocks, at an entry. -/
theorem stepAcc_apply (i : grid0.Coords) (x0 : Vec Ideal S32x300 .f32) (x1 : Vec Ideal S32x128 .f32) (x2 : Vec Ideal S32x300x128 .f32)
    (x3 : Vec Ideal S2x300x2048 .f32) (acc : Vec Ideal S32x2 .f32) (r : Fin 32) (k : Fin 2) :
    Pieces.stepAcc (F := Ideal) i x0 x1 x2 x3 acc (ix2 r k)
      = acc (ix2 r k) + ∑ w : Fin 300, ∑ l : Fin 128, ((x0 (ix2 r w) * x1 (ix2 r l)) * x2 (ix3 r w l)) * Pieces.lanes i x3 (ix3 k w l) := by
  unfold Pieces.stepAcc
  rw [Payload.pay1_eq]
  exact Payload.pay4_apply x0 x1 x2 (Pieces.lanes i x3) acc r k

/-- One step at point `t` on the point's blocks adds the point's addend. -/
theorem step_at (c : Dev nD) (t : Fin cfg0.N) (acc : Vec Ideal S32x2 .f32) (j : S32x2.Idx) :
    Pieces.stepAcc (F := Ideal) (grid0.coords t) (iblk m c 0 t) (iblk m c 1 t) (iblk m c 2 t) (iblk m c 3 t) acc j
      = acc j + addend m c t.val j := by
  obtain ⟨r, k, rfl⟩ : ∃ (r : Fin 32) (k : Fin 2), j = ix2 r k := ⟨j 0, j 1, eq_ix2 j⟩
  refine (stepAcc_apply (grid0.coords t) (iblk m c 0 t) (iblk m c 1 t) (iblk m c 2 t) (iblk m c 3 t) acc r k).trans ?_
  unfold addend
  rw [dif_pos t.isLt]
  refine congrArg (fun z => acc (ix2 r k) + z) ?_
  refine Finset.sum_congr rfl fun w _ => Finset.sum_congr rfl fun l _ => ?_
  rw [blk0 m c t r w, blk1 m c t r l, blk2 m c t r w l, lanes3 m c t k w l]
  rfl

/-- The start of the chunk that holds point `t`. -/
abbrev base (t : Fin cfg0.N) : ℕ := 16 * (t.val / 16)

/-- AFTER POINT `t` the scratch holds, at every entry, 0 plus the addends of its chunk's points up to `t`. -/
theorem scratch_after (c : Dev nD) (t : Fin cfg0.N) (i : S32x2.Idx) :
    (outsAt0 m c t.val t.isLt).2 i = 0 + ∑ s ∈ Finset.range (t.val % 16 + 1), addend m c (base t + s) i := by
  have hN : cfg0.N = 64 := N_0
  rw [Value.soutsAt0_0_eq m c t]
  refine Pipeline.accAt_add_apply (fun n h => Value.scAt0_0 m c n h (VS0_0.read (Elt Ideal) VS0_0.junk)) (Value.scAt0_0 m c)
    (fun _ => 0) (addend m c) (base t) 15 ?ha ?hg (t.val % 16) (by omega) _ i
  case ha =>
    intro h i
    have h0 : base t % 16 = 0 := by show (16 * (t.val / 16)) % 16 = 0; omega
    have h1 : ¬ base t % 16 = 15 := by omega
    show Value.scAt0_0 m c (base t) h (VS0_0.read (Elt Ideal) VS0_0.junk) i = 0 + addend m c (base t) i
    unfold Value.scAt0_0
    rw [dif_pos h0, dif_neg h1]
    refine (congrFun (Pieces.sout_A (F := Ideal) c (grid0.coords ⟨base t, h⟩) (ms0_0 ⟨base t, h⟩) (hs0_0 ⟨base t, h⟩) (ms0_1 ⟨base t, h⟩) (hs0_1 ⟨base t, h⟩) (ms0_2 ⟨base t, h⟩) (hs0_2 ⟨base t, h⟩) (ms0_3 ⟨base t, h⟩) (hs0_3 ⟨base t, h⟩) (ms0_4 ⟨base t, h⟩) (hs0_4 ⟨base t, h⟩) (ms0_5 ⟨base t, h⟩) (hs0_5 ⟨base t, h⟩) scM0_0 (Memref.isWhole_whole _) _ _ (iblk m c 0 ⟨base t, h⟩) (iblk m c 1 ⟨base t, h⟩) (iblk m c 2 ⟨base t, h⟩) (iblk m c 3 ⟨base t, h⟩) (iblk m c 4 ⟨base t, h⟩)) i).trans ?_
    refine (step_at m c ⟨base t, h⟩ (k0_pay3 (F := Ideal)) i).trans ?_
    rw [Payload.pay3_apply]
  case hg =>
    intro n h acc i hb he
    have h0 : ¬ n % 16 = 0 := by have : base t = 16 * (t.val / 16) := rfl; omega
    show Value.scAt0_0 m c n h acc i = acc i + addend m c n i
    unfold Value.scAt0_0
    by_cases h1 : n % 16 = 15
    · rw [dif_neg h0, dif_pos h1]
      exact (congrFun (Pieces.sout_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) _ _ (iblk m c 0 ⟨n, h⟩) (iblk m c 1 ⟨n, h⟩) (iblk m c 2 ⟨n, h⟩) (iblk m c 3 ⟨n, h⟩) (iblk m c 4 ⟨n, h⟩) acc) i).trans
        (step_at m c ⟨n, h⟩ acc i)
    · rw [dif_neg h0, dif_neg h1]
      exact (congrFun (Pieces.sout_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) _ _ (iblk m c 0 ⟨n, h⟩) (iblk m c 1 ⟨n, h⟩) (iblk m c 2 ⟨n, h⟩) (iblk m c 3 ⟨n, h⟩) (iblk m c 4 ⟨n, h⟩) acc) i).trans
        (step_at m c ⟨n, h⟩ acc i)

end Cert.KernelIdeal.Accum

end
-- ==== Proof.Sums.lean ====
/-
  The one law that joins the two sides, over any commutative additive monoid (the extended reals are one:
  their addition is commutative and associative, infinities included, so no finiteness is used anywhere).

  A sum over the flat positions `k < 300 · 2048` of a row-major `[300, 2048]` table is the sum, over the 16 column
  blocks `s` of 128 lanes, of the sums over the rows `w` and the lanes `l` of the block: position
  `w · 2048 + (s · 128 + l)` is row `w`, column `s · 128 + l`. Each position is met exactly once, and only
  the order and the grouping of the additions change.
-/
import Idealize.ShloMosaic.Lib.ValueIdx

open Finset

namespace Cert.Sums

variable {M : Type*} [AddCommMonoid M]

/-- A sum over the positions below `W · I` is the sum over the rows `w < W` of the sums over the columns `i < I`
    of position `i + I · w`. -/
theorem sum_fin_mul (W I n : ℕ) (hn : n = W * I) (h : ℕ → M) :
    ∑ k : Fin n, h k.val = ∑ w : Fin W, ∑ i : Fin I, h (i.val + I * w.val) := by
  subst hn
  rw [← Equiv.sum_comp finProdFinEquiv (fun k : Fin (W * I) => h k.val), Fintype.sum_prod_type]
  rfl

/-- The regrouping over natural positions: all 614400 positions, against 16 column blocks of 300 rows by 128 lanes. -/
theorem sum_flat_eq_blocks_nat (h : ℕ → M) :
    ∑ k : Fin 614400, h k.val
      = ∑ s : Fin 16, ∑ w : Fin 300, ∑ l : Fin 128, h (w.val * 2048 + (s.val * 128 + l.val)) := by
  have e1 : ∑ k : Fin 614400, h k.val = ∑ w : Fin 300, ∑ i : Fin 2048, h (i.val + 2048 * w.val) :=
    sum_fin_mul 300 2048 614400 (by norm_num) h
  have e2 : ∀ w : Fin 300, ∑ i : Fin 2048, h (i.val + 2048 * w.val)
      = ∑ s : Fin 16, ∑ l : Fin 128, h ((l.val + 128 * s.val) + 2048 * w.val) := fun w =>
    sum_fin_mul 16 128 2048 (by norm_num) (fun i => h (i + 2048 * w.val))
  rw [e1, Finset.sum_congr rfl (fun w _ => e2 w), Finset.sum_comm]
  refine Finset.sum_congr rfl fun s _ => Finset.sum_congr rfl fun w _ => Finset.sum_congr rfl fun l _ => ?_
  exact congrArg h (by omega)

/-- The same for a table given on the positions `Fin 614400` themselves. -/
theorem sum_flat_eq_blocks (U : Fin 614400 → M) :
    ∑ k : Fin 614400, U k
      = ∑ s : Fin 16, ∑ w : Fin 300, ∑ l : Fin 128,
          U ⟨w.val * 2048 + (s.val * 128 + l.val), by have := w.isLt; have := s.isLt; have := l.isLt; omega⟩ := by
  have e := sum_flat_eq_blocks_nat (fun k => if hk : k < 614400 then U ⟨k, hk⟩ else 0)
  have el : ∑ k : Fin 614400, (fun k => if hk : k < 614400 then U ⟨k, hk⟩ else 0) k.val = ∑ k : Fin 614400, U k :=
    Finset.sum_congr rfl fun k _ => dif_pos k.isLt
  rw [← el, e]
  refine Finset.sum_congr rfl fun s _ => Finset.sum_congr rfl fun w _ => Finset.sum_congr rfl fun l _ => ?_
  exact dif_pos (by have := w.isLt; have := s.isLt; have := l.isLt; omega)

end Cert.Sums
-- ==== Proof.Spec.lean ====
/-
  The specification: the result [128, 2] as ONE function of the arrays, over the extended reals.

      result[b, k] = ( ∑ over the flat positions p < 614400 of
                          ((wv[b, p / 2048] · ims[b, p % 2048]) · mask[b, p]) · weights[k, p] ) + bias[k]

  with wv [128, 300] the gathered embedding rows, ims [128, 2048], mask [128, 614400], weights [2, 614400], bias [2].
  This is how the reference reads (one contraction over p). The kernel reaches the same sum as 0 plus, over the 16 column
  blocks s, the sums over the rows w and the lanes l of the term at position p = w · 2048 + (128 · s + l): the same terms,
  each once, added in another order (`result_blocks`). Only commutativity and associativity of + are used, so the law
  holds for every extended-real input, infinities included.
-/
import proofs.«127470_j44263932952625_2_alg».proof.Proof.Sums
import Idealize.ShloMosaic.Lib.ValueIdx
import Idealize.ShloMosaic.PureOps.Ideal

noncomputable section

open Idealize.ShloMosaic Idealize.ShloMosaic.ValueIdx

namespace Cert.Spec

/-- Flat position of (embedding row w, image column j) in a row-major [300, 2048] table. -/
abbrev flat (w : Fin 300) (j : Fin 2048) : Fin 614400 := ⟨w.val * 2048 + j.val, by have := w.isLt; have := j.isLt; omega⟩
/-- The embedding row of a flat position, -/
abbrev rowOf (p : Fin 614400) : Fin 300 := ⟨p.val / 2048, by have := p.isLt; omega⟩
/-- and its image column. -/
abbrev colOf (p : Fin 614400) : Fin 2048 := ⟨p.val % 2048, by omega⟩
/-- Lane l of column block s, among the 2048 image columns. -/
abbrev lane (s : Fin 16) (l : Fin 128) : Fin 2048 := ⟨128 * s.val + l.val, by have := s.isLt; have := l.isLt; omega⟩

variable (wv : (⟨2, ![128, 300]⟩ : Shape).Idx → EReal) (ims : (⟨2, ![128, 2048]⟩ : Shape).Idx → EReal)
  (msk : (⟨2, ![128, 614400]⟩ : Shape).Idx → EReal) (wts : (⟨2, ![2, 614400]⟩ : Shape).Idx → EReal)
  (bias : (⟨1, ![2]⟩ : Shape).Idx → EReal)

/-- The term at flat position `p`, for batch row `b` and class `k`: the product grouped as both programs group it. -/
def term (b : Fin 128) (k : Fin 2) (p : Fin 614400) : EReal :=
  ((wv (ix2 b (rowOf p)) * ims (ix2 b (colOf p))) * msk (ix2 b p)) * wts (ix2 k p)

/-- The result array. -/
def result (i : (⟨2, ![128, 2]⟩ : Shape).Idx) : EReal :=
  (∑ p : Fin 614400, term wv ims msk wts (i 0) (i 1) p) + bias (ix1 (i 1))

/-- The same, as the kernel adds it up: from 0, column block by column block, each block its rows and lanes. -/
theorem result_blocks (i : (⟨2, ![128, 2]⟩ : Shape).Idx) :
    result wv ims msk wts bias i
      = (0 + ∑ s : Fin 16, ∑ w : Fin 300, ∑ l : Fin 128,
          ((wv (ix2 (i 0) w) * ims (ix2 (i 0) (lane s l))) * msk (ix2 (i 0) (flat w (lane s l)))) * wts (ix2 (i 1) (flat w (lane s l))))
        + bias (ix1 (i 1)) := by
  unfold result
  rw [zero_add, Cert.Sums.sum_flat_eq_blocks]
  refine congrArg (fun z => z + bias (ix1 (i 1))) ?_
  refine Finset.sum_congr rfl fun s _ => Finset.sum_congr rfl fun w _ => Finset.sum_congr rfl fun l _ => ?_
  have hw := w.isLt
  have hs := s.isLt
  have hl := l.isLt
  have e1 : rowOf ⟨w.val * 2048 + (s.val * 128 + l.val), by omega⟩ = w :=
    Fin.ext (by show (w.val * 2048 + (s.val * 128 + l.val)) / 2048 = w.val; omega)
  have e2 : colOf ⟨w.val * 2048 + (s.val * 128 + l.val), by omega⟩ = lane s l :=
    Fin.ext (by show (w.val * 2048 + (s.val * 128 + l.val)) % 2048 = 128 * s.val + l.val; omega)
  have e3 : (⟨w.val * 2048 + (s.val * 128 + l.val), by omega⟩ : Fin 614400) = flat w (lane s l) :=
    Fin.ext (by show w.val * 2048 + (s.val * 128 + l.val) = w.val * 2048 + (128 * s.val + l.val); omega)
  unfold term
  rw [e1, e2, e3]

end Cert.Spec

end
-- ==== Proof.Result.lean ====
/-
  From blocks to the array: what the result array holds after the run.

  Only the last point of each batch chunk (t % 16 = 15) writes its output block back, and what it writes is the
  accumulator after that point plus the bias row: entry (b, k) of the result is 0 plus the addends of the chunk's 16 points
  plus bias[k]. The four written blocks are rows 32·q … 32·q + 31 for q = 0 … 3: they tile the [128, 2] array, so every
  entry of it is one function `G` of the arrays the region found.
-/
import proofs.«127470_j44263932952625_2_alg».proof.Proof.Accum
import proofs.«127470_j44263932952625_2_alg».proof.Proof.Spec

noncomputable section

open Idealize.ShloMosaic Idealize.ShloMosaic.TcCoe Idealize.ShloMosaic.ValueIdx Idealize.SL.Sem
open Idealize.ShloMosaic.Pipeline (Dat)

namespace Cert.KernelIdeal.Result

open Cert.KernelIdeal Cert.KernelIdeal.Gen Cert.KernelIdeal.Blocks Cert.KernelIdeal.Accum

variable (m : (ℓ : Loc nD τ sig) → Buf (Elt Ideal) ℓ) (ρ : Dev nD → PrngReg)

/-- The result array as one function of the arrays the region finds: from 0, the 16 column blocks' sums over the rows
    and lanes, then the bias of the class. -/
def G (c : Dev nD) : S128x2.Idx → EReal := fun i =>
  (0 + ∑ s : Fin 16, ∑ w : Fin 300, ∑ l : Fin 128, prod m c (i 0) (i 1) w (Cert.Spec.lane s l)) + biasA m c (ix2 (0 : Fin 1) (i 1))

/-- At a chunk's last point the output block is the accumulator just stored plus the bias row. -/
theorem out_at (c : Dev nD) (t : Fin cfg0.N) (h0 : ¬t.val % 16 = 0) (h1 : t.val % 16 = 15) :
    (outsAt0 m c t.val t.isLt).1 = k0_pay2 (F := Ideal) (outsAt0 m c t.val t.isLt).2 (iblk m c 4 t) := by
  rw [outsAt0_C m c t h0 h1]
  dsimp only
  refine (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t)
    (outsAt0 m c (t.val - 1) (Nat.lt_of_le_of_lt (Nat.sub_le _ _) t.isLt)).2).trans ?_
  exact congrArg (fun a => k0_pay2 (F := Ideal) a (iblk m c 4 t))
    (Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t)
      (outsAt0 m c (t.val - 1) (Nat.lt_of_le_of_lt (Nat.sub_le _ _) t.isLt)).2).symm

/-- WHAT A WRITING POINT WRITES BACK is its block of `G`. -/
theorem flushed_eq (c : Dev nD) (t : Fin cfg0.N) (hf : (cfg0.win 5).flush t = true) :
    (dats m 0 c).flushed 5 t = ((cfg0.win 5).blk t).view.read (Elt Ideal) (G m c) := by
  have h1 : t.val % 16 = 15 := (flush0_5 t).mp hf
  have h0 : ¬t.val % 16 = 0 := by omega
  have hN := t_lt t
  have hNN : cfg0.N = 64 := N_0
  obtain ⟨-, -, -, -, -, -, -, -, -, -, -, -, e0, e1, -⟩ := idx_facts t
  rw [Value.flushed5 m c t, out_at m c t h0 h1]
  funext y
  obtain ⟨r, k, rfl⟩ : ∃ (r : Fin 32) (k : Fin 2), y = ix2 r k := ⟨y 0, y 1, eq_ix2 y⟩
  have hemb : ((cfg0.win 5).blk t).view.emb (ix2 r k) = ix2 (row t r) k := funext fun a => Fin.ext (by
    match a with
    | ⟨0, _⟩ => show win0_5.index t (0 : Fin 2) * 32 + 1 * r.val = 32 * (t.val / 16) + r.val; rw [e0]; omega
    | ⟨1, _⟩ => show win0_5.index t (1 : Fin 2) * 2 + 1 * k.val = k.val; rw [e1]; omega)
  show k0_pay2 (F := Ideal) (outsAt0 m c t.val t.isLt).2 (iblk m c 4 t) (ix2 r k) = G m c (((cfg0.win 5).blk t).view.emb (ix2 r k))
  rw [hemb, Payload.pay2_apply, scratch_after m c t (ix2 r k), blk4 m c t 0 k, h1, Finset.sum_range]
  show _ = (0 + ∑ s : Fin 16, ∑ w : Fin 300, ∑ l : Fin 128, prod m c (row t r) k w (Cert.Spec.lane s l)) + biasA m c (ix2 (0 : Fin 1) k)
  refine congrArg (fun z => (0 + z) + biasA m c (ix2 (0 : Fin 1) k)) (Finset.sum_congr rfl fun s _ => ?_)
  have hs := s.isLt
  have hb : base t + s.val < cfg0.N := by show 16 * (t.val / 16) + s.val < cfg0.N; omega
  unfold addend
  rw [dif_pos hb]
  refine Finset.sum_congr rfl fun w _ => Finset.sum_congr rfl fun l _ => ?_
  have er : row ⟨base t + s.val, hb⟩ r = row t r :=
    Fin.ext (by show 32 * ((16 * (t.val / 16) + s.val) / 16) + r.val = 32 * (t.val / 16) + r.val; omega)
  have ec : col ⟨base t + s.val, hb⟩ l = Cert.Spec.lane s l :=
    Fin.ext (by show 128 * ((16 * (t.val / 16) + s.val) % 16) + l.val = 128 * s.val + l.val; omega)
  show prod m c (row ⟨base t + s.val, hb⟩ r) k w (col ⟨base t + s.val, hb⟩ l) = _
  rw [er, ec]

/-- An entry of the array is in point `t`'s block iff each coordinate is in the block's range on its axis. -/
theorem mem_blk (t : Fin cfg0.N) (i : S128x2.Idx) :
    i ∈ ((cfg0.win 5).blk t).view.set ↔ ∀ a : Fin 2, win0_5.index t a * S32x2.size a ≤ (i a).val ∧ (i a).val < win0_5.index t a * S32x2.size a + S32x2.size a := by
  show i ∈ ((View.whole main_v10).slice (win0_5.rect t)).set ↔ _
  rw [View.set_slice_whole, Rect.mem_set_unit]
  exact Iff.rfl

/-- THE ARRAY after the run is `G`: row b lies in the block the last point of chunk b / 32 writes. -/
theorem final (c : Dev nD) : (dats m 0 c).arrAt 5 cfg0.N = G m c :=
  (dats m 0 c).arrAt_eq_of_cover 5 (G m c) (fun t hf => flushed_eq m c t hf) fun i => by
    have hi0 : (i 0).val < 128 := (i 0).isLt
    have hi1 : (i 1).val < 2 := (i 1).isLt
    have hNN : cfg0.N = 64 := N_0
    have hb : 16 * ((i 0).val / 32) + 15 < cfg0.N := by omega
    obtain ⟨-, -, -, -, -, -, -, -, -, -, -, -, e0, e1, -⟩ := idx_facts ⟨16 * ((i 0).val / 32) + 15, hb⟩
    refine ⟨⟨16 * ((i 0).val / 32) + 15, hb⟩, (flush0_5 _).mpr (by show (16 * ((i 0).val / 32) + 15) % 16 = 15; omega), ?_⟩
    rw [mem_blk]
    intro a
    match a with
    | ⟨0, _⟩ =>
      show win0_5.index ⟨16 * ((i 0).val / 32) + 15, hb⟩ (0 : Fin 2) * 32 ≤ (i 0).val
        ∧ (i 0).val < win0_5.index ⟨16 * ((i 0).val / 32) + 15, hb⟩ (0 : Fin 2) * 32 + 32
      rw [e0]
      show (16 * ((i 0).val / 32) + 15) / 16 * 32 ≤ (i 0).val ∧ (i 0).val < (16 * ((i 0).val / 32) + 15) / 16 * 32 + 32
      omega
    | ⟨1, _⟩ =>
      show win0_5.index ⟨16 * ((i 0).val / 32) + 15, hb⟩ (1 : Fin 2) * 2 ≤ (i 1).val
        ∧ (i 1).val < win0_5.index ⟨16 * ((i 0).val / 32) + 15, hb⟩ (1 : Fin 2) * 2 + 2
      rw [e1]
      omega

/-- The run, read: the result array at `G`, the arguments unchanged. -/
theorem run : θ_run defs (onTc (τ := τ) (main (F := Ideal))) ⟨m, fun _ => 0, ρ⟩ fun r => ∀ c : Dev nD,
      r.2.mem ((c : Thread nD τ).loc main_v10) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Result

end
-- ==== Proof.Arrays.lean ====
/-
  The arrays the region finds, as the program's own host operations of the arguments, and their entries.

  Before the region the program wraps negative word indices (w < 0 becomes w + 30000), gathers the embedding rows at
  them, and reshapes the mask [128, 614400] to [128, 300, 2048], the weights [2, 614400] to [2, 300, 2048] and the bias
  [2] to [1, 2]. A reshape keeps the row-major position: entry (b, w, j) of the reshaped mask is entry (b, w·2048 + j).
-/
import proofs.«127470_j44263932952625_2_alg».proof.Proof.Gen.KernelIdeal.Frame
import proofs.«127470_j44263932952625_2_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.ShloMosaic.ValueIdx Idealize.SL.Sem

namespace Cert.KernelIdeal.Arrays

open Cert.KernelIdeal Cert.KernelIdeal.Gen

variable {F : FTy → Type} [FloatOps F]
variable (m : (ℓ : Loc nD τ sig) → Buf (Elt F) ℓ)

/-- The embedding rows gathered at the wrapped word indices. -/
def gathered (x1 : (⟨S128, .i32⟩ : BufTy).Contents (Elt F)) (x2 : (⟨S30000x300, .f32⟩ : BufTy).Contents (Elt F)) :
    (⟨S128x300, .f32⟩ : BufTy).Contents (Elt F) :=
  Host.gather gather_S30000x300_S128x1_S128x300_1_0_n_n_0_1_1300 x2
    (broadcastInDim S128x1 ![0] bcast_S128_S128x1_0
      (select (cmpi .slt x1 (broadcastInDim S128 ![] bcast_S_S128 (constantI S_ 32 0#32)))
        (addi x1 (broadcastInDim S128 ![] bcast_S_S128 (constantI S_ 32 30000#32))) x1))

theorem V_v6 (c : Dev nD) :
    V m c main_v6 = gathered (m ((c : Thread nD τ).loc main_arg1)) (m ((c : Thread nD τ).loc main_arg2)) := by
  dsimp only [Gen.V, Gen.hostOps0]; after_results; rfl

theorem V_v7 (c : Dev nD) :
    V m c main_v7 = shapeCast S128x300x2048 (m ((c : Thread nD τ).loc main_arg5)) shapeCasts_S128x614400_S128x300x2048 := by
  dsimp only [Gen.V, Gen.hostOps0]; after_results; rfl

theorem V_v8 (c : Dev nD) :
    V m c main_v8 = shapeCast S2x300x2048 (m ((c : Thread nD τ).loc main_arg3)) shapeCasts_S2x614400_S2x300x2048 := by
  dsimp only [Gen.V, Gen.hostOps0]; after_results; rfl

theorem V_v9 (c : Dev nD) :
    V m c main_v9 = shapeCast S1x2 (m ((c : Thread nD τ).loc main_arg4)) shapeCasts_S2_S1x2 := by
  dsimp only [Gen.V, Gen.hostOps0]; after_results; rfl

section Entries
variable {α : Type}

open Cert.Spec (flat)

theorem mask_apply (x : S128x614400.Idx → α) (h : S128x614400.ShapeCasts S128x300x2048) (b : Fin 128) (w : Fin 300) (j : Fin 2048) :
    shapeCast S128x300x2048 x h (ix3 b w j) = x (ix2 b (flat w j)) := by
  refine shapeCast_apply x h (ix3 b w j) (ix2 b (flat w j)) ?_
  rw [Shape.rowMajor_val_two, Shape.rowMajor_val_three]
  show b.val * 614400 + (w.val * 2048 + j.val) = (b.val * 300 + w.val) * 2048 + j.val
  omega

theorem weights_apply (x : S2x614400.Idx → α) (h : S2x614400.ShapeCasts S2x300x2048) (k : Fin 2) (w : Fin 300) (j : Fin 2048) :
    shapeCast S2x300x2048 x h (ix3 k w j) = x (ix2 k (flat w j)) := by
  refine shapeCast_apply x h (ix3 k w j) (ix2 k (flat w j)) ?_
  rw [Shape.rowMajor_val_two, Shape.rowMajor_val_three]
  show k.val * 614400 + (w.val * 2048 + j.val) = (k.val * 300 + w.val) * 2048 + j.val
  omega

theorem bias_apply (x : S2.Idx → α) (h : S2.ShapeCasts S1x2) (z : Fin 1) (k : Fin 2) :
    shapeCast S1x2 x h (ix2 z k) = x (ix1 k) := by
  refine shapeCast_apply x h (ix2 z k) (ix1 k) ?_
  rw [Shape.rowMajor_val_one, Shape.rowMajor_val_two]
  show k.val = z.val * 2 + k.val
  have := z.isLt; omega

end Entries

end Cert.KernelIdeal.Arrays

end
-- ==== Proof.KernelSpec.lean ====
/-
  The kernel's result array is the specification of the argument arrays.

  Entry by entry, `G` is the blocked form of the specification: the arrays the region finds are the gathered embedding
  rows, the images as launched, and the mask, weights and bias reshaped, and a reshaped entry (b, w, j) is the flat entry
  (b, w · 2048 + j).
-/
import proofs.«127470_j44263932952625_2_alg».proof.Proof.Result
import proofs.«127470_j44263932952625_2_alg».proof.Proof.Arrays
import proofs.«127470_j44263932952625_2_alg».proof.Proof.Spec

noncomputable section

open Idealize.ShloMosaic Idealize.ShloMosaic.TcCoe Idealize.ShloMosaic.ValueIdx Idealize.SL.Sem

namespace Cert.KernelIdeal.KernelSpec

open Cert.KernelIdeal Cert.KernelIdeal.Gen Cert.KernelIdeal.Accum

variable (m : (ℓ : Loc nD τ sig) → Buf (Elt Ideal) ℓ)

/-- The result array, as the specification of the arguments at launch. -/
abbrev spec (c : Dev nD) : S128x2.Idx → EReal :=
  Cert.Spec.result (Arrays.gathered (m ((c : Thread nD τ).loc main_arg1)) (m ((c : Thread nD τ).loc main_arg2)))
    (m ((c : Thread nD τ).loc main_arg0)) (m ((c : Thread nD τ).loc main_arg5)) (m ((c : Thread nD τ).loc main_arg3))
    (m ((c : Thread nD τ).loc main_arg4))

theorem G_eq (c : Dev nD) : Result.G m c = spec m c := by
  funext i
  show Result.G m c i = Cert.Spec.result _ _ _ _ _ i
  rw [Cert.Spec.result_blocks]
  unfold Result.G
  have hwv : wvA m c = Arrays.gathered (m ((c : Thread nD τ).loc main_arg1)) (m ((c : Thread nD τ).loc main_arg2)) := Arrays.V_v6 m c
  have hims : imsA m c = m ((c : Thread nD τ).loc main_arg0) := V_main_arg0 m c
  have hmsk : mskA m c = shapeCast S128x300x2048 (m ((c : Thread nD τ).loc main_arg5)) shapeCasts_S128x614400_S128x300x2048 := Arrays.V_v7 m c
  have hwts : wtsA m c = shapeCast S2x300x2048 (m ((c : Thread nD τ).loc main_arg3)) shapeCasts_S2x614400_S2x300x2048 := Arrays.V_v8 m c
  have hbias : biasA m c = shapeCast S1x2 (m ((c : Thread nD τ).loc main_arg4)) shapeCasts_S2_S1x2 := Arrays.V_v9 m c
  refine congrArg₂ (fun z y => (0 + z) + y)
    (Finset.sum_congr rfl fun s _ => Finset.sum_congr rfl fun w _ => Finset.sum_congr rfl fun l _ => ?_) ?_
  · unfold prod
    rw [hwv, hims, hmsk, hwts]
    exact congrArg₂ (· * ·) (congrArg₂ (· * ·) rfl (Arrays.mask_apply _ _ (i 0) w (Cert.Spec.lane s l)))
      (Arrays.weights_apply _ _ (i 1) w (Cert.Spec.lane s l))
  · exact (congrFun hbias _).trans (Arrays.bias_apply _ _ (0 : Fin 1) (i 1))

end Cert.KernelIdeal.KernelSpec

end
-- ==== Proof.RefSpec.lean ====
/-
  The reference's result is the specification of its arguments.

  Read one operation at a time: the last addition is the contraction's entry plus the bias broadcast; the contraction's
  entry (b, k) is the sum over the flat positions p of the left operand at (b, p) times the transposed weights at (p, k);
  the left operand at (b, p) is the reshaped outer product at (b, p / 2048, p % 2048) times the mask at (b, p); and the
  outer product there is the gathered embedding row's entry (b, p / 2048) times the image entry (b, p % 2048).
-/
import proofs.«127470_j44263932952625_2_alg».proof.Proof.Gen.ReferenceIdeal.Read
import proofs.«127470_j44263932952625_2_alg».proof.Proof.Spec

noncomputable section

open Idealize.ShloMosaic Idealize.ShloMosaic.ValueIdx

namespace Cert.ReferenceIdeal.RefSpec

open Cert.ReferenceIdeal Cert.ReferenceIdeal.Read Cert.Spec

theorem ref_eq (x0 : (⟨S128x2048, .f32⟩ : BufTy).Contents (Elt Ideal)) (x1 : (⟨S128, .i32⟩ : BufTy).Contents (Elt Ideal))
    (x2 : (⟨S30000x300, .f32⟩ : BufTy).Contents (Elt Ideal)) (x3 : (⟨S2x614400, .f32⟩ : BufTy).Contents (Elt Ideal))
    (x4 : (⟨S2, .f32⟩ : BufTy).Contents (Elt Ideal)) (x5 : (⟨S128x614400, .f32⟩ : BufTy).Contents (Elt Ideal)) :
    val_main_v18 (F := Ideal) x0 x1 x2 x3 x4 x5 = Cert.Spec.result (val_main_v6 (F := Ideal) x1 x2) x0 x5 x3 x4 := by
  funext i
  obtain ⟨b, k, rfl⟩ : ∃ (b : Fin 128) (k : Fin 2), i = ix2 b k := ⟨i 0, i 1, eq_ix2 i⟩
  have hb := b.isLt
  have hk := k.isLt
  have e4 : idx_main_v16 (idx_main_v17 (ix2 b k)) = ix1 k := funext fun a => Fin.ext (by
    match a with
    | ⟨0, _⟩ => rfl)
  rw [val_main_v18_apply, val_main_v15_apply, val_main_v17_apply, val_main_v16_apply, e4]
  unfold Cert.Spec.result
  show (∑ p : Fin 614400, _) + x4 (ix1 k) = (∑ p : Fin 614400, _) + x4 (ix1 k)
  refine congrArg (fun z => z + x4 (ix1 k)) (Finset.sum_congr rfl fun p _ => ?_)
  have hp := p.isLt
  have el : lidx_main_v15 (ix2 b k) p = ix2 b p := funext fun a => Fin.ext (by
    match a with
    | ⟨0, _⟩ => rfl
    | ⟨1, _⟩ => rfl)
  have er : idx_main_v14 (ridx_main_v15 (ix2 b k) p) = ix2 k p := funext fun a => Fin.ext (by
    match a with
    | ⟨0, _⟩ => rfl
    | ⟨1, _⟩ => rfl)
  have ewv : idx_main_v7 (idx_main_v9 (idx_main_v12 (ix2 b p))) = ix2 b (rowOf p) := funext fun a => Fin.ext (by
    match a with
    | ⟨0, _⟩ => show (b.val * 614400 + p.val) / 614400 = b.val; omega
    | ⟨1, _⟩ => show (b.val * 614400 + p.val) / 2048 % 300 = p.val / 2048; omega)
  have eim : idx_main_v8 (idx_main_v10 (idx_main_v12 (ix2 b p))) = ix2 b (colOf p) := funext fun a => Fin.ext (by
    match a with
    | ⟨0, _⟩ => show (b.val * 614400 + p.val) / 614400 = b.val; omega
    | ⟨1, _⟩ => show (b.val * 614400 + p.val) % 2048 = p.val % 2048; omega)
  rw [val_main_v13_apply, val_main_v14_apply, el, er, val_main_v12_apply, val_main_v11_apply, val_main_v9_apply,
    val_main_v7_apply, val_main_v10_apply, val_main_v8_apply, ewv, eim]
  rfl

end Cert.ReferenceIdeal.RefSpec

end
-- ==== Proof.lean ====
/-
  The five claims for the alignment-score kernel against its jnp reference.

  Both programs compute, for batch row b and class k,
      out[b, k] = ∑_p ((wv[b, p / 2048] · ims[b, p % 2048]) · mask[b, p]) · weights[k, p] + bias[k],   p < 300 · 2048,
  where wv is the embedding table gathered at the word indices (negative indices wrapped by 30000) — the same host
  operations in both programs, so one term. The reference forms the outer product, flattens it, multiplies by the mask
  and contracts against the transposed weights in one sum over p. The kernel walks a 4 × 16 grid: for each chunk of 32
  batch rows it zeroes a [32, 2] accumulator, adds for each of the 16 blocks of 128 image columns the block's sum over the
  300 embedding rows and 128 lanes, and after the last block writes the accumulator plus the bias row. Its products are
  grouped as the reference's; only the order of the additions differs, and addition of extended reals is commutative
  and associative whatever the summands, so the two results agree for every input and the precondition is never used.

  Frames: the two kernels' are the generated ones; the reference's is its generated run with the result dropped.
  The ideal pass rewrote nothing, so the kernel's idealization is the program's own text read at the ideal instance.
-/
import proofs.«127470_j44263932952625_2_alg».proof.Defs
import proofs.«127470_j44263932952625_2_alg».proof.Proof.Gen.Kernel
import proofs.«127470_j44263932952625_2_alg».proof.Proof.Gen.Kernel.Skeleton
import proofs.«127470_j44263932952625_2_alg».proof.Proof.Gen.Kernel.Launch
import proofs.«127470_j44263932952625_2_alg».proof.Proof.Gen.Kernel.Points
import proofs.«127470_j44263932952625_2_alg».proof.Proof.Gen.Kernel.Frame
import proofs.«127470_j44263932952625_2_alg».proof.Proof.Gen.KernelIdeal
import proofs.«127470_j44263932952625_2_alg».proof.Proof.Gen.KernelIdeal.Skeleton
import proofs.«127470_j44263932952625_2_alg».proof.Proof.Gen.KernelIdeal.Launch
import proofs.«127470_j44263932952625_2_alg».proof.Proof.Gen.KernelIdeal.Points
import proofs.«127470_j44263932952625_2_alg».proof.Proof.Gen.KernelIdeal.Frame
import proofs.«127470_j44263932952625_2_alg».proof.Proof.Gen.KernelIdeal.Value
import proofs.«127470_j44263932952625_2_alg».proof.Proof.Gen.ReferenceIdeal
import proofs.«127470_j44263932952625_2_alg».proof.Proof.Gen.ReferenceIdeal.Run
import proofs.«127470_j44263932952625_2_alg».proof.Proof.Gen.ReferenceIdeal.Read
import proofs.«127470_j44263932952625_2_alg».proof.Proof.Gen.Pre_finite_inputs
import proofs.«127470_j44263932952625_2_alg».proof.Proof.KernelSpec
import proofs.«127470_j44263932952625_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The embedding rows gathered at the wrapped word indices are one term in the two programs. -/
theorem gathered_eq (x1 : (⟨Cert.ReferenceIdeal.S128, .i32⟩ : BufTy).Contents (Elt Ideal))
    (x2 : (⟨Cert.ReferenceIdeal.S30000x300, .f32⟩ : BufTy).Contents (Elt Ideal)) :
    Cert.ReferenceIdeal.Read.val_main_v6 (F := Ideal) x1 x2 = Cert.KernelIdeal.Arrays.gathered (F := Ideal) x1 x2 := rfl

/-- From memories that agree on the arguments both runs end at the specification of those arguments: the kernel's result
    array by the accumulation over the grid, the reference's by reading its operations one at a time. -/
theorem algebraic : Cert.algebraic_KernelIdeal_ReferenceIdeal := by
  intro m ρ m' ρ' _ hagree
  refine ⟨fun c => Cert.KernelIdeal.KernelSpec.spec m c, ?_, ?_⟩
  · exact (θ_run Cert.KernelIdeal.defs _ _).mono
      (fun r h c => ⟨(h c).1.trans (Cert.KernelIdeal.KernelSpec.G_eq m c), (h c).2⟩) (Cert.KernelIdeal.Result.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.ReferenceIdeal.RefSpec.ref_eq, gathered_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
